-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S65536 : Shape := ⟨1, ![65536]⟩
abbrev S64x300 : Shape := ⟨2, ![64, 300]⟩
abbrev S300 : Shape := ⟨1, ![300]⟩
abbrev S65536x300 : Shape := ⟨2, ![65536, 300]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S64x300 : S_.BroadcastsInDim S64x300 (![] : Fin 0 → Fin S64x300.rank)
  reducesTo_S64x300_S_d0_1 : S64x300.ReducesTo [0, 1] S_
  bcast_S_S300 : S_.BroadcastsInDim S300 (![] : Fin 0 → Fin S300.rank)
  reducesTo_S300_S_d0 : S300.ReducesTo [0] S_
  bcast_S_S65536x300 : S_.BroadcastsInDim S65536x300 (![] : Fin 0 → Fin S65536x300.rank)
  reducesTo_S65536x300_S_d0_1 : S65536x300.ReducesTo [0, 1] S_

variable [Facts]

def fn_part1 {F : FTy → Type} [FloatOps F] (main_arg5 : FVec F S300 .f32) (main_arg6 : FVec F S65536x300 .f32) (main_v13 : IVec S_ 1) (main_v16 : IVec S64x300 1) : IVec S_ 1 :=
  let main_c_5 : IVec S_ 1 := constantI S_ 1 1#1
  let main_v17 : IVec S_ 1 := (fun x v => Host.reduce IntOp.andi x v reducesTo_S64x300_S_d0_1 h_S_) main_v16 main_c_5
  let main_v18 : IVec S_ 1 := andi main_v13 main_v17
  let main_v19 : FVec F S300 .f32 := Host.absf main_arg5
  let main_cst_6 : FVec F S_ .f32 := constant S_ .f32 0x7F800000#32
  let main_v20 : FVec F S300 .f32 := broadcastInDim S300 ![] bcast_S_S300 main_cst_6
  let main_v21 : IVec S300 1 := cmpf .olt main_v19 main_v20
  let main_c_7 : IVec S_ 1 := constantI S_ 1 1#1
  let main_v22 : IVec S_ 1 := (fun x v => Host.reduce IntOp.andi x v reducesTo_S300_S_d0 h_S_) main_v21 main_c_7
  let main_v23 : IVec S_ 1 := andi main_v18 main_v22
  let main_v24 : FVec F S65536x300 .f32 := Host.absf main_arg6
  let main_cst_8 : FVec F S_ .f32 := constant S_ .f32 0x7F800000#32
  let main_v25 : FVec F S65536x300 .f32 := broadcastInDim S65536x300 ![] bcast_S_S65536x300 main_cst_8
  let main_v26 : IVec S65536x300 1 := cmpf .olt main_v24 main_v25
  let main_c_9 : IVec S_ 1 := constantI S_ 1 1#1
  let main_v27 : IVec S_ 1 := (fun x v => Host.reduce IntOp.andi x v reducesTo_S65536x300_S_d0_1 h_S_) main_v26 main_c_9
  let main_v28 : IVec S_ 1 := andi main_v23 main_v27
  main_v28

def fn {F : FTy → Type} [FloatOps F] (main_arg0 : FVec F S65536x64 .f32) (main_arg1 : IVec S65536 32) (main_arg2 : FVec F S64x300 .f32) (main_arg3 : FVec F S300 .f32) (main_arg4 : FVec F S64x300 .f32) (main_arg5 : FVec F S300 .f32) (main_arg6 : FVec F S65536x300 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S64x300 .f32 := Host.absf main_arg2
  let main_cst_0 : FVec F S_ .f32 := constant S_ .f32 0x7F800000#32
  let main_v5 : FVec F S64x300 .f32 := broadcastInDim S64x300 ![] bcast_S_S64x300 main_cst_0
  let main_v6 : IVec S64x300 1 := cmpf .olt main_v4 main_v5
  let main_c_1 : IVec S_ 1 := constantI S_ 1 1#1
  let main_v7 : IVec S_ 1 := (fun x v => Host.reduce IntOp.andi x v reducesTo_S64x300_S_d0_1 h_S_) main_v6 main_c_1
  let main_v8 : IVec S_ 1 := andi main_v3 main_v7
  let main_v9 : FVec F S300 .f32 := Host.absf main_arg3
  let main_cst_2 : FVec F S_ .f32 := constant S_ .f32 0x7F800000#32
  let main_v10 : FVec F S300 .f32 := broadcastInDim S300 ![] bcast_S_S300 main_cst_2
  let main_v11 : IVec S300 1 := cmpf .olt main_v9 main_v10
  let main_c_3 : IVec S_ 1 := constantI S_ 1 1#1
  let main_v12 : IVec S_ 1 := (fun x v => Host.reduce IntOp.andi x v reducesTo_S300_S_d0 h_S_) main_v11 main_c_3
  let main_v13 : IVec S_ 1 := andi main_v8 main_v12
  let main_v14 : FVec F S64x300 .f32 := Host.absf main_arg4
  let main_cst_4 : FVec F S_ .f32 := constant S_ .f32 0x7F800000#32
  let main_v15 : FVec F S64x300 .f32 := broadcastInDim S64x300 ![] bcast_S_S64x300 main_cst_4
  let main_v16 : IVec S64x300 1 := cmpf .olt main_v14 main_v15
  fn_part1 (F := F) main_arg5 main_arg6 main_v13 main_v16
-- ==== Kernel.lean ====
abbrev S65536x64 : Shape := ⟨2, ![65536, 64]⟩
abbrev S65536 : Shape := ⟨1, ![65536]⟩
abbrev S64x300 : Shape := ⟨2, ![64, 300]⟩
abbrev S300 : Shape := ⟨1, ![300]⟩
abbrev S65536x300 : Shape := ⟨2, ![65536, 300]⟩
abbrev S1x300 : Shape := ⟨2, ![1, 300]⟩
abbrev S2048x64 : Shape := ⟨2, ![2048, 64]⟩
abbrev S2048x300 : Shape := ⟨2, ![2048, 300]⟩

abbrev nBuf : Space → Nat
  | .hbm => 12
  | .vmem => 14
  | .smem => 0
  | _ => 0

abbrev bufTy : (tb : Table) → Fin (tcTables nBuf tb) → BufTy
  | .hbm, ⟨0, _⟩ => ⟨S65536x64, .f32⟩
  | .hbm, ⟨1, _⟩ => ⟨S65536, .i32⟩
  | .hbm, ⟨2, _⟩ => ⟨S64x300, .f32⟩
  | .hbm, ⟨3, _⟩ => ⟨S300, .f32⟩
  | .hbm, ⟨4, _⟩ => ⟨S64x300, .f32⟩
  | .hbm, ⟨5, _⟩ => ⟨S300, .f32⟩
  | .hbm, ⟨6, _⟩ => ⟨S65536x300, .f32⟩
  | .hbm, ⟨7, _⟩ => ⟨S1x300, .f32⟩
  | .hbm, ⟨8, _⟩ => ⟨S1x300, .f32⟩
  | .hbm, ⟨9, _⟩ => ⟨S65536x300, .f32⟩
  | .hbm, ⟨10, _⟩ => ⟨S65536x300, .f32⟩
  | .hbm, ⟨11, _⟩ => ⟨S65536x300, .f32⟩
  | .local _ .vmem, ⟨0, _⟩ => ⟨S2048x64, .f32⟩
  | .local _ .vmem, ⟨1, _⟩ => ⟨S2048x64, .f32⟩
  | .local _ .vmem, ⟨2, _⟩ => ⟨S64x300, .f32⟩
  | .local _ .vmem, ⟨3, _⟩ => ⟨S1x300, .f32⟩
  | .local _ .vmem, ⟨4, _⟩ => ⟨S64x300, .f32⟩
  | .local _ .vmem, ⟨5, _⟩ => ⟨S1x300, .f32⟩
  | .local _ .vmem, ⟨6, _⟩ => ⟨S2048x300, .f32⟩
  | .local _ .vmem, ⟨7, _⟩ => ⟨S2048x300, .f32⟩
  | .local _ .vmem, ⟨8, _⟩ => ⟨S2048x300, .f32⟩
  | .local _ .vmem, ⟨9, _⟩ => ⟨S2048x300, .f32⟩
  | .local _ .vmem, ⟨10, _⟩ => ⟨S2048x300, .f32⟩
  | .local _ .vmem, ⟨11, _⟩ => ⟨S2048x300, .f32⟩
  | .local _ .vmem, ⟨12, _⟩ => ⟨S2048x300, .f32⟩
  | .local _ .vmem, ⟨13, _⟩ => ⟨S2048x300, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x300 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x300 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x300 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x300 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S300_S1x300 : S300.ShapeCasts S1x300
  inb_S2048x64_S2048x64_0_0 : ∀ a, (![0, 0] : Fin 2 → Nat) a + S2048x64.size a ≤ S2048x64.size a
  h_S2048x64 : 0 < S2048x64.numel
  bitsLt_bf16_f32 : FTy.bits .bf16 < FTy.bits .f32
  inb_S64x300_S64x300_0_0 : ∀ a, (![0, 0] : Fin 2 → Nat) a + S64x300.size a ≤ S64x300.size a
  h_S64x300 : 0 < S64x300.numel
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S2048x300 : S1x300.Broadcasts S2048x300
  inb_S2048x300_S2048x300_0_0 : ∀ a, (![0, 0] : Fin 2 → Nat) a + S2048x300.size a ≤ S2048x300.size a
  h_S2048x300 : 0 < S2048x300.numel
  dot_S2048x64_S64x300_S2048x300_1_0_0_1_n_n_wf : DotDims.WF S2048x64 S64x300 S2048x300 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S65536x64.size a
  hwx0_0 : ∀ i : grid0.Coords, EltTy.bits .f32 = 32 ∨ (Rect.block (s := S65536x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x300.size a ≤ S64x300.size a
  hwx0_1 : ∀ i : grid0.Coords, EltTy.bits .f32 = 32 ∨ (Rect.block (s := S64x300) S64x300.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x300.size a ≤ S1x300.size a
  hwx0_2 : ∀ i : grid0.Coords, EltTy.bits .f32 = 32 ∨ (Rect.block (s := S1x300) S1x300.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x300.size a ≤ S64x300.size a
  hwx0_3 : ∀ i : grid0.Coords, EltTy.bits .f32 = 32 ∨ (Rect.block (s := S64x300) S64x300.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x300.size a ≤ S1x300.size a
  hwx0_4 : ∀ i : grid0.Coords, EltTy.bits .f32 = 32 ∨ (Rect.block (s := S1x300) S1x300.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x300.size a ≤ S65536x300.size a
  hwx0_5 : ∀ i : grid0.Coords, EltTy.bits .f32 = 32 ∨ (Rect.block (s := S65536x300) S2048x300.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x300.size a ≤ S65536x300.size a
  hwx0_6 : ∀ i : grid0.Coords, EltTy.bits .f32 = 32 ∨ (Rect.block (s := S65536x300) S2048x300.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x300.size a ≤ S65536x300.size a
  hwx0_7 : ∀ i : grid0.Coords, EltTy.bits .f32 = 32 ∨ (Rect.block (s := S65536x300) S2048x300.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x300.size a ≤ S65536x300.size a
  hwx0_8 : ∀ i : grid0.Coords, EltTy.bits .f32 = 32 ∨ (Rect.block (s := S65536x300) S2048x300.size (cc0_transform_8 i) (hinb0_8 i)).WholeWords (EltTy.packing .f32)

variable [Facts₀]

def dot_S2048x64_S64x300_S2048x300_1_0_0_1_n_n : DotDims S2048x64 S64x300 S2048x300 where
  lhsContracting := [1]
  rhsContracting := [0]
  lhsNonContracting := [0]
  rhsNonContracting := [1]
  lhsBatch := []
  rhsBatch := []
  wf := dot_S2048x64_S64x300_S2048x300_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x300.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x300.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S2048x300.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_0) S2048x300.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_1) S2048x300.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_2) S2048x300.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S65536x64 : Shape := ⟨2, ![65536, 64]⟩
abbrev S65536 : Shape := ⟨1, ![65536]⟩
abbrev S64x300 : Shape := ⟨2, ![64, 300]⟩
abbrev S300 : Shape := ⟨1, ![300]⟩
abbrev S65536x300 : Shape := ⟨2, ![65536, 300]⟩
abbrev S1x300 : Shape := ⟨2, ![1, 300]⟩

abbrev nBuf : Space → Nat
  | .hbm => 19
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S65536, .i32⟩
  | .hbm, ⟨2, _⟩ => ⟨S64x300, .f32⟩
  | .hbm, ⟨3, _⟩ => ⟨S300, .f32⟩
  | .hbm, ⟨4, _⟩ => ⟨S64x300, .f32⟩
  | .hbm, ⟨5, _⟩ => ⟨S300, .f32⟩
  | .hbm, ⟨6, _⟩ => ⟨S65536x300, .f32⟩
  | .hbm, ⟨7, _⟩ => ⟨S65536x300, .f32⟩
  | .hbm, ⟨8, _⟩ => ⟨S1x300, .f32⟩
  | .hbm, ⟨9, _⟩ => ⟨S65536x300, .f32⟩
  | .hbm, ⟨10, _⟩ => ⟨S65536x300, .f32⟩
  | .hbm, ⟨11, _⟩ => ⟨S65536x300, .f32⟩
  | .hbm, ⟨12, _⟩ => ⟨S1x300, .f32⟩
  | .hbm, ⟨13, _⟩ => ⟨S65536x300, .f32⟩
  | .hbm, ⟨14, _⟩ => ⟨S65536x300, .f32⟩
  | .hbm, ⟨15, _⟩ => ⟨S65536x300, .f32⟩
  | .hbm, ⟨16, _⟩ => ⟨S65536x300, .f32⟩
  | .hbm, ⟨17, _⟩ => ⟨S65536x300, .f32⟩
  | .hbm, ⟨18, _⟩ => ⟨S65536x300, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S300_S1x300_1 : S300.BroadcastsInDim S1x300 (![1] : Fin 1 → Fin S1x300.rank)
  bcast_S1x300_S65536x300_0_1 : S1x300.BroadcastsInDim S65536x300 (![0, 1] : Fin 2 → Fin S65536x300.rank)
  dot_S65536x64_S64x300_S65536x300_1_0_0_1_n_n_wf : DotDims.WF S65536x64 S64x300 S65536x300 [1] [0] [0] [1] [] []

variable [Facts₀]

def dot_S65536x64_S64x300_S65536x300_1_0_0_1_n_n : DotDims S65536x64 S64x300 S65536x300 where
  lhsContracting := [1]
  rhsContracting := [0]
  lhsNonContracting := [0]
  rhsNonContracting := [1]
  lhsBatch := []
  rhsBatch := []
  wf := dot_S65536x64_S64x300_S65536x300_1_0_0_1_n_n_wf

class Facts : Prop extends Facts₀ where

variable [Facts]
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibRowBlocks.lean ====
/-
  A matrix product computed by blocks of rows is the whole product.

  At the ideal values — floats extended reals, every operation exact — the host's `dot_general` with
  the plain dimension numbers "rows × contraction times contraction × columns", read at the output
  index (r, c), is the sum over k of lhs (r, k) · rhs (k, c), exactly what a `tpu.matmul` into the zero
  accumulator is.  So a row block of the left operand, multiplied on the matrix unit by the whole right
  operand, gives at its local index (p, c) the whole product's entry at (r, c), where r is the row of the
  whole array that the block's row p is.  No finiteness is used: both sides are one and the same sum.
-/
import proofs.«171103_j11811160064302_2_alg».proof.Proof.LibPlainDot

noncomputable section

namespace Cert.Lib.RowBlocks

open Idealize.ShloMosaic Idealize.ShloMosaic.ValueIdx Cert.Lib.PlainDot

variable {M K N : Nat}

/-- The host's plain `dot_general`, at the ideal values, read at (r, c): the sum over k of
    lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

/-- A block of B rows of the left operand times the whole right operand, into the zero accumulator: its
    entry at the local index (p, c) is the whole product's entry at (r, c), when row p of the block is row r
    of the whole left operand and the block's right operand is the whole one (the operands' float formats may
    differ between the block and the whole: at the ideal values every format is the extended reals). -/
theorem matmul_rows_eq_dotGeneral {B : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, N]⟩ φ₂) (p : Fin B) (r : Fin M) (c : Fin N)
    (hx : ∀ k : Fin K, (xb (ix2 p k) : EReal) = x (ix2 r k)) (hw : ∀ k : Fin K, (wb (ix2 k c) : EReal) = w (ix2 k c)) :
    matmul (DotDims.plain B K N) prec xb wb (constant (F := Ideal) ⟨2, ![B, N]⟩ .f32 0x00000000#32) (ix2 p c)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.RowBlocks

end
-- ==== Proof.LibSqrtSquare.lean ====
/-
  The square root of a square is the absolute value, on every extended real.

  At the ideal values a float is an extended real: the square root is the real square root on the
  nonnegative reals and +∞ at +∞, and the absolute value of s is max s (−s).  For a real r the square r·r is
  a nonnegative real whose root is |r| = max r (−r).  For s = +∞ or s = −∞ the square s·s is +∞, whose root
  +∞ is again max s (−s).  So sqrt (s·s) = |s| for every extended real s, and no finiteness is needed.
-/
import Idealize.ShloMosaic.PureOps.Ideal

noncomputable section

namespace Cert.Lib.SqrtSquare

open Idealize.ShloMosaic

/-- On the extended reals, the square root of s·s is max s (−s). -/
theorem sqrt_mul_self (s : EReal) : Ideal.sqrt (s * s) = max s (-s) := by
  induction s using EReal.rec with
  | bot =>
    rw [EReal.bot_mul_bot, Ideal.sqrt_top, EReal.neg_bot]
    exact (max_eq_right bot_le).symm
  | coe r =>
    rw [← EReal.coe_mul, Ideal.sqrt_coe, if_neg (not_lt.2 (mul_self_nonneg r)), Real.sqrt_mul_self_eq_abs,
      abs_eq_max_neg, ← EReal.coe_neg]
    exact EReal.coe_strictMono.monotone.map_max
  | top =>
    rw [EReal.top_mul_top, Ideal.sqrt_top, EReal.neg_top]
    exact (max_eq_left bot_le).symm

/-- The same law in the operations' own spelling: the host's square root of the product s·s is the vector
    unit's absolute value of s. -/
theorem hostSqrt_mul_self {φ : FTy} (s : Ideal φ) :
    FloatOps.hostUnary .sqrt (FloatOps.mulf s s) = FloatOps.absf s :=
  sqrt_mul_self s

end Cert.Lib.SqrtSquare

end
-- ==== Proof.Affine.lean ====
/-
  One block of rows of the affine map x ↦ x·W + v, and of the three results built on it.

  The arrays: x is [65536, 64], W is [64, 300], v is [300].  The whole result at (r, c) is
  (∑ k, x (r, k) · W (k, c)) + v (c): a product of x with W, plus the vector v added to every row.
  A block holds 2048 consecutive rows of x, the whole of W, and v laid out as the row [1, 300].  Its matrix
  product into the zero accumulator, at the local index (p, c), is the same sum over k once row p of the block is
  row r of x; the row [1, 300] broadcast down the 2048 rows reads v (c).  The change of the operands to a narrower
  float format before the product is the identity at the ideal values.

  On top of the affine map s = x·Wσ + vσ and the mean μ = x·Wμ + vμ the three results are
  μ, s·s, and μ + |s|·ε against μ + sqrt (s·s)·ε: equal because sqrt (s·s) = |s| on every extended real.
-/
import proofs.«171103_j11811160064302_2_alg».proof.Proof.Gen.KernelIdeal.Skeleton
import proofs.«171103_j11811160064302_2_alg».proof.Proof.Gen.ReferenceIdeal.Read
import proofs.«171103_j11811160064302_2_alg».proof.Proof.LibRows
import proofs.«171103_j11811160064302_2_alg».proof.Proof.LibRowBlocks
import proofs.«171103_j11811160064302_2_alg».proof.Proof.LibSqrtSquare

noncomputable section

namespace Cert.Sample

open Idealize.ShloMosaic Idealize.ShloMosaic.ValueIdx
open Cert.KernelIdeal.Gen (k0_pay1 k0_pay2 k0_pay3 k0_pay4 k0_pay5)
open Cert.ReferenceIdeal.Read

/-- The vector v broadcast to a row and then down all rows reads v (c) at (r, c). -/
theorem bias_apply (v : FVec Ideal Cert.ReferenceIdeal.S300 .f32) (r : Fin 65536) (c : Fin 300) :
    val_main_v2 (F := Ideal) v (ix2 r c) = v (ix1 c) := by
  rw [val_main_v2_apply, val_main_v1_apply]
  exact congrArg v (funext fun a => Fin.ext (by match a with | ⟨0, _⟩ => rfl))

/-- The block's affine map at the local index (p, c) is the whole affine map at (r, c), when row p of the block
    is row r of x, the block's matrix is W and its row is v. -/
theorem affine_rows
    (x : FVec Ideal Cert.ReferenceIdeal.S65536x64 .f32) (W : FVec Ideal Cert.ReferenceIdeal.S64x300 .f32)
    (v : FVec Ideal Cert.ReferenceIdeal.S300 .f32)
    (xb : FVec Ideal Cert.KernelIdeal.S2048x64 .f32) (Wb : FVec Ideal Cert.KernelIdeal.S64x300 .f32)
    (vb : FVec Ideal Cert.KernelIdeal.S1x300 .f32) (p : Fin 2048) (r : Fin 65536) (c : Fin 300)
    (hx : ∀ k : Fin 64, xb (ix2 p k) = x (ix2 r k)) (hW : ∀ k : Fin 64, Wb (ix2 k c) = W (ix2 k c))
    (hv : vb (ix2 0 c) = v (ix1 c)) :
    k0_pay2 (F := Ideal) xb Wb vb (ix2 p c) = val_main_v3 (F := Ideal) x W v (ix2 r c) := by
  unfold k0_pay2 k0_pay1
  dsimp only
  rw [val_main_v3_apply, addf_apply]
  refine congrArg₂ (fun a b : EReal => a + b) ?_ ?_
  · exact Cert.Lib.RowBlocks.matmul_rows_eq_dotGeneral none none x W _ _ p r c hx hW
  · rw [bias_apply]
    refine (Cert.Lib.Rows.broadcastTo_row_apply _ _ p c).trans ?_
    rw [shapeCast_self]
    exact hv

/-- The same for the second affine map, the scale s = x·Wσ + vσ: the block computes it with the same operations. -/
theorem scale_rows
    (x : FVec Ideal Cert.ReferenceIdeal.S65536x64 .f32) (W : FVec Ideal Cert.ReferenceIdeal.S64x300 .f32)
    (v : FVec Ideal Cert.ReferenceIdeal.S300 .f32)
    (xb : FVec Ideal Cert.KernelIdeal.S2048x64 .f32) (Wb : FVec Ideal Cert.KernelIdeal.S64x300 .f32)
    (vb : FVec Ideal Cert.KernelIdeal.S1x300 .f32) (p : Fin 2048) (r : Fin 65536) (c : Fin 300)
    (hx : ∀ k : Fin 64, xb (ix2 p k) = x (ix2 r k)) (hW : ∀ k : Fin 64, Wb (ix2 k c) = W (ix2 k c))
    (hv : vb (ix2 0 c) = v (ix1 c)) :
    k0_pay3 (F := Ideal) xb Wb vb (ix2 p c) = val_main_v7 (F := Ideal) x W v (ix2 r c) :=
  affine_rows x W v xb Wb vb p r c hx hW hv

/-- The variance s·s of the block at (p, c) is the whole variance at (r, c). -/
theorem var_rows
    (x : FVec Ideal Cert.ReferenceIdeal.S65536x64 .f32) (W : FVec Ideal Cert.ReferenceIdeal.S64x300 .f32)
    (v : FVec Ideal Cert.ReferenceIdeal.S300 .f32)
    (xb : FVec Ideal Cert.KernelIdeal.S2048x64 .f32) (Wb : FVec Ideal Cert.KernelIdeal.S64x300 .f32)
    (vb : FVec Ideal Cert.KernelIdeal.S1x300 .f32) (p : Fin 2048) (r : Fin 65536) (c : Fin 300)
    (hx : ∀ k : Fin 64, xb (ix2 p k) = x (ix2 r k)) (hW : ∀ k : Fin 64, Wb (ix2 k c) = W (ix2 k c))
    (hv : vb (ix2 0 c) = v (ix1 c)) :
    k0_pay4 (F := Ideal) xb Wb vb (ix2 p c) = val_main_v8 (F := Ideal) x W v (ix2 r c) := by
  unfold k0_pay4
  rw [val_main_v8_apply, mulf_apply, scale_rows x W v xb Wb vb p r c hx hW hv]
  rfl

/-- The sample of the block at (p, c), μ + |s|·ε, is the whole sample μ + sqrt (s·s)·ε at (r, c): the two affine
    maps agree entry by entry, the noise block is rows of the noise array, and sqrt (s·s) = |s|. -/
theorem sample_rows
    (x : FVec Ideal Cert.ReferenceIdeal.S65536x64 .f32)
    (Wm : FVec Ideal Cert.ReferenceIdeal.S64x300 .f32) (vm : FVec Ideal Cert.ReferenceIdeal.S300 .f32)
    (Ws : FVec Ideal Cert.ReferenceIdeal.S64x300 .f32) (vs : FVec Ideal Cert.ReferenceIdeal.S300 .f32)
    (e : FVec Ideal Cert.ReferenceIdeal.S65536x300 .f32)
    (xb : FVec Ideal Cert.KernelIdeal.S2048x64 .f32)
    (Wmb : FVec Ideal Cert.KernelIdeal.S64x300 .f32) (vmb : FVec Ideal Cert.KernelIdeal.S1x300 .f32)
    (Wsb : FVec Ideal Cert.KernelIdeal.S64x300 .f32) (vsb : FVec Ideal Cert.KernelIdeal.S1x300 .f32)
    (eb : FVec Ideal Cert.KernelIdeal.S2048x300 .f32) (p : Fin 2048) (r : Fin 65536) (c : Fin 300)
    (hx : ∀ k : Fin 64, xb (ix2 p k) = x (ix2 r k))
    (hWm : ∀ k : Fin 64, Wmb (ix2 k c) = Wm (ix2 k c)) (hvm : vmb (ix2 0 c) = vm (ix1 c))
    (hWs : ∀ k : Fin 64, Wsb (ix2 k c) = Ws (ix2 k c)) (hvs : vsb (ix2 0 c) = vs (ix1 c))
    (he : eb (ix2 p c) = e (ix2 r c)) :
    k0_pay5 (F := Ideal) xb Wmb Wsb vmb vsb eb (ix2 p c) = val_main_v11 (F := Ideal) x Wm vm Ws vs e (ix2 r c) := by
  unfold k0_pay5
  show FloatOps.addf (k0_pay2 (F := Ideal) xb Wmb vmb (ix2 p c))
      (FloatOps.mulf (FloatOps.absf (k0_pay3 (F := Ideal) xb Wsb vsb (ix2 p c))) (eb (ix2 p c)))
    = FloatOps.addf (val_main_v3 (F := Ideal) x Wm vm (ix2 r c))
      (FloatOps.mulf (FloatOps.hostUnary .sqrt (FloatOps.mulf (val_main_v7 (F := Ideal) x Ws vs (ix2 r c))
        (val_main_v7 (F := Ideal) x Ws vs (ix2 r c)))) (e (ix2 r c)))
  rw [affine_rows x Wm vm xb Wmb vmb p r c hx hWm hvm, scale_rows x Ws vs xb Wsb vsb p r c hx hWs hvs, he,
    Cert.Lib.SqrtSquare.hostSqrt_mul_self]

end Cert.Sample

end
-- ==== Proof.Blocks.lean ====
/-
  The input blocks of a grid point, read at an index.

  The grid has 32 points; point t works on rows 2048·t … 2048·t + 2047.  The block of the [65536, 64] array x at
  point t, at the local index (p, k), is x at (2048·t + p, k), and the block of the [65536, 300] noise array at
  (p, c) is the array at (2048·t + p, c).  The two [64, 300] matrices are one block each, the same at every point:
  the block at (k, c) is the matrix at (k, c).  The two [300] vectors reach the region reshaped to the row
  [1, 300], again one block: the block at (0, c) is the vector at c.
-/
import proofs.«171103_j11811160064302_2_alg».proof.Proof.Gen.KernelIdeal.Frame
import proofs.«171103_j11811160064302_2_alg».proof.Proof.LibRows
import Idealize.ShloMosaic.Lib.Pipeline.Value
import Idealize.ShloMosaic.Lib.StableHlo.Run

noncomputable section

namespace Cert.Sample

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The block indices of the nine windows, decided over the 32 grid points: the row-blocked windows (x, the noise
    and the three results) are at block (t, 0), the others at block (0, 0). -/
theorem index_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- The block of x at point t, at (p, k), is x at (r, k) for r = 2048·t + p. -/
theorem x_block (c : Dev nD) (t : Fin cfg0.N) (p : Fin 2048) (k : Fin 64) (r : Fin 65536)
    (hr : r.val = 2048 * t.val + p.val) :
    (iblk m c 0 t : Vec F S2048x64 .f32) (ix2 p k)
      = (m ((c : Thread nD τ).loc main_arg0) : S65536x64.Idx → Elt F .f32) (ix2 r k) := by
  obtain ⟨⟨e0, e1⟩, -⟩ := index_facts t
  unfold iblk
  rw [View.read_apply]
  show V m c main_arg0 _ = _
  rw [V_main_arg0]
  refine congrArg _ (funext fun a => Fin.ext ?_)
  match a with
  | ⟨0, _⟩ => show win0_0.index t (0 : Fin 2) * 2048 + 1 * p.val = r.val; rw [e0, hr]; omega
  | ⟨1, _⟩ => show win0_0.index t (1 : Fin 2) * 64 + 1 * k.val = k.val; rw [e1]; omega

/-- The block of the noise array at point t, at (p, q), is the array at (r, q) for r = 2048·t + p. -/
theorem noise_block (c : Dev nD) (t : Fin cfg0.N) (p : Fin 2048) (q : Fin 300) (r : Fin 65536)
    (hr : r.val = 2048 * t.val + p.val) :
    (iblk m c 5 t : Vec F S2048x300 .f32) (ix2 p q)
      = (m ((c : Thread nD τ).loc main_arg6) : S65536x300.Idx → Elt F .f32) (ix2 r q) := by
  obtain ⟨-, -, -, -, -, ⟨e0, e1⟩, -⟩ := index_facts t
  unfold iblk
  rw [View.read_apply]
  show V m c main_arg6 _ = _
  rw [V_main_arg6]
  refine congrArg _ (funext fun a => Fin.ext ?_)
  match a with
  | ⟨0, _⟩ => show win0_5.index t (0 : Fin 2) * 2048 + 1 * p.val = r.val; rw [e0, hr]; omega
  | ⟨1, _⟩ => show win0_5.index t (1 : Fin 2) * 300 + 1 * q.val = q.val; rw [e1]; omega

/-- The block of the mean's matrix is the matrix, at every point. -/
theorem mean_matrix_block (c : Dev nD) (t : Fin cfg0.N) (k : Fin 64) (q : Fin 300) :
    (iblk m c 1 t : Vec F S64x300 .f32) (ix2 k q)
      = (m ((c : Thread nD τ).loc main_arg2) : S64x300.Idx → Elt F .f32) (ix2 k q) := by
  obtain ⟨-, ⟨e0, e1⟩, -⟩ := index_facts t
  unfold iblk
  rw [View.read_apply]
  show V m c main_arg2 _ = _
  rw [V_main_arg2]
  refine congrArg _ (funext fun a => Fin.ext ?_)
  match a with
  | ⟨0, _⟩ => show win0_1.index t (0 : Fin 2) * 64 + 1 * k.val = k.val; rw [e0]; omega
  | ⟨1, _⟩ => show win0_1.index t (1 : Fin 2) * 300 + 1 * q.val = q.val; rw [e1]; omega

/-- The block of the scale's matrix is the matrix, at every point. -/
theorem scale_matrix_block (c : Dev nD) (t : Fin cfg0.N) (k : Fin 64) (q : Fin 300) :
    (iblk m c 3 t : Vec F S64x300 .f32) (ix2 k q)
      = (m ((c : Thread nD τ).loc main_arg4) : S64x300.Idx → Elt F .f32) (ix2 k q) := by
  obtain ⟨-, -, -, ⟨e0, e1⟩, -⟩ := index_facts t
  unfold iblk
  rw [View.read_apply]
  show V m c main_arg4 _ = _
  rw [V_main_arg4]
  refine congrArg _ (funext fun a => Fin.ext ?_)
  match a with
  | ⟨0, _⟩ => show win0_3.index t (0 : Fin 2) * 64 + 1 * k.val = k.val; rw [e0]; omega
  | ⟨1, _⟩ => show win0_3.index t (1 : Fin 2) * 300 + 1 * q.val = q.val; rw [e1]; omega

/-- The mean's vector reaches the region reshaped to a row: its one block, at (0, q), is the vector at q. -/
theorem mean_row_block (c : Dev nD) (t : Fin cfg0.N) (q : Fin 300) :
    (iblk m c 2 t : Vec F S1x300 .f32) (ix2 0 q)
      = (m ((c : Thread nD τ).loc main_arg3) : S300.Idx → Elt F .f32) (ix1 q) := by
  obtain ⟨-, -, ⟨e0, e1⟩, -⟩ := index_facts t
  unfold iblk
  rw [View.read_apply]
  show V m c main_v0 _ = _
  have e : (V m c main_v0 : S1x300.Idx → Elt F .f32)
      = shapeCast S1x300 (m ((c : Thread nD τ).loc main_arg3)) Facts₀.shapeCasts_S300_S1x300 := by
    dsimp only [V, hostOps0]; after_results; rfl
  rw [e]
  refine Eq.trans (congrArg _ (funext fun a => Fin.ext ?_)) (Cert.Lib.Rows.shapeCast_vec_row_apply _ _ q)
  match a with
  | ⟨0, _⟩ => show win0_2.index t (0 : Fin 2) * 1 + 1 * 0 = 0; rw [e0]
  | ⟨1, _⟩ => show win0_2.index t (1 : Fin 2) * 300 + 1 * q.val = q.val; rw [e1]; omega

/-- The scale's vector reaches the region reshaped to a row: its one block, at (0, q), is the vector at q. -/
theorem scale_row_block (c : Dev nD) (t : Fin cfg0.N) (q : Fin 300) :
    (iblk m c 4 t : Vec F S1x300 .f32) (ix2 0 q)
      = (m ((c : Thread nD τ).loc main_arg5) : S300.Idx → Elt F .f32) (ix1 q) := by
  obtain ⟨-, -, -, -, ⟨e0, e1⟩, -⟩ := index_facts t
  unfold iblk
  rw [View.read_apply]
  show V m c main_v1 _ = _
  have e : (V m c main_v1 : S1x300.Idx → Elt F .f32)
      = shapeCast S1x300 (m ((c : Thread nD τ).loc main_arg5)) Facts₀.shapeCasts_S300_S1x300 := by
    dsimp only [V, hostOps0]; after_results; rfl
  rw [e]
  refine Eq.trans (congrArg _ (funext fun a => Fin.ext ?_)) (Cert.Lib.Rows.shapeCast_vec_row_apply _ _ q)
  match a with
  | ⟨0, _⟩ => show win0_4.index t (0 : Fin 2) * 1 + 1 * 0 = 0; rw [e0]
  | ⟨1, _⟩ => show win0_4.index t (1 : Fin 2) * 300 + 1 * q.val = q.val; rw [e1]; omega

end Cert.Sample

end
-- ==== Proof.Arrays.lean ====
/-
  From the blocks to the three whole result arrays.

  Each of the 32 grid points writes back, to each of the three [65536, 300] result arrays, the block of rows
  2048·t … 2048·t + 2047.  What point t writes at the local index (p, q) is the block's value there, and that is the
  whole result — the mean μ = x·Wμ + vμ, the variance s·s with s = x·Wσ + vσ, the sample μ + sqrt (s·s)·ε — at the
  array index (2048·t + p, q).  The 32 blocks of rows cover the array (row r lies in the block of point r / 2048),
  so after the run each result array is that function of the argument arrays.
-/
import proofs.«171103_j11811160064302_2_alg».proof.Proof.Gen.KernelIdeal.Value
import proofs.«171103_j11811160064302_2_alg».proof.Proof.Affine
import proofs.«171103_j11811160064302_2_alg».proof.Proof.Blocks

noncomputable section

namespace Cert.Sample

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-- The mean array μ = x·Wμ + vμ of the argument arrays. -/
abbrev meanOf (c : Dev nD) : S65536x300.Idx → Elt Ideal .f32 :=
  Cert.ReferenceIdeal.Read.val_main_v3 (F := Ideal) (m ((c : Thread nD τ).loc main_arg0))
    (m ((c : Thread nD τ).loc main_arg2)) (m ((c : Thread nD τ).loc main_arg3))

/-- The variance array s·s, s = x·Wσ + vσ, of the argument arrays. -/
abbrev varOf (c : Dev nD) : S65536x300.Idx → Elt Ideal .f32 :=
  Cert.ReferenceIdeal.Read.val_main_v8 (F := Ideal) (m ((c : Thread nD τ).loc main_arg0))
    (m ((c : Thread nD τ).loc main_arg4)) (m ((c : Thread nD τ).loc main_arg5))

/-- The sample array μ + sqrt (s·s)·ε of the argument arrays. -/
abbrev sampleOf (c : Dev nD) : S65536x300.Idx → Elt Ideal .f32 :=
  Cert.ReferenceIdeal.Read.val_main_v11 (F := Ideal) (m ((c : Thread nD τ).loc main_arg0))
    (m ((c : Thread nD τ).loc main_arg2)) (m ((c : Thread nD τ).loc main_arg3))
    (m ((c : Thread nD τ).loc main_arg4)) (m ((c : Thread nD τ).loc main_arg5))
    (m ((c : Thread nD τ).loc main_arg6))

/-- What point t writes back to the mean array is block t of the mean. -/
theorem mean_flushed (c : Dev nD) (t : Fin cfg0.N) :
    (dats m 0 c).flushed 7 t = ((cfg0.win 7).blk t).view.read (Elt Ideal) (meanOf m c) := by
  obtain ⟨-, -, -, -, -, -, ⟨e60, e61⟩, ⟨e70, e71⟩, ⟨e80, e81⟩⟩ := index_facts t
  rw [Value.flushed7]
  unfold out0_7
  rw [View.canon_unit_zero offsets_zero]
  simp only [View.ld_unit_zero (S := S2048x64) offsets_zero, View.ld_unit_zero (S := S64x300) offsets_zero, View.ld_unit_zero (S := S1x300) offsets_zero]
  funext j
  show k0_pay2 (F := Ideal) (iblk m c 0 t) (iblk m c 1 t) (iblk m c 2 t) j = meanOf m c (((cfg0.win 7).blk t).view.emb j)
  obtain ⟨p, q, rfl⟩ : ∃ (p : Fin 2048) (q : Fin 300), j = ix2 p q := ⟨j 0, j 1, eq_ix2 j⟩
  have hN : cfg0.N = 32 := N_0
  have hr : 2048 * t.val + p.val < 65536 := by have := t.isLt; omega
  have hemb : ((cfg0.win 7).blk t).view.emb (ix2 p q) = (ix2 ⟨2048 * t.val + p.val, hr⟩ q : S65536x300.Idx) := by
    funext a; apply Fin.ext
    match a with
    | ⟨0, _⟩ => show win0_7.index t (0 : Fin 2) * 2048 + 1 * p.val = 2048 * t.val + p.val; rw [e70]; omega
    | ⟨1, _⟩ => show win0_7.index t (1 : Fin 2) * 300 + 1 * q.val = q.val; rw [e71]; omega
  rw [hemb]
  exact affine_rows (m ((c : Thread nD τ).loc main_arg0)) (m ((c : Thread nD τ).loc main_arg2)) (m ((c : Thread nD τ).loc main_arg3)) (iblk m c 0 t) (iblk m c 1 t) (iblk m c 2 t) p ⟨2048 * t.val + p.val, hr⟩ q (fun k => x_block m c t p k ⟨2048 * t.val + p.val, hr⟩ rfl)
    (fun k => mean_matrix_block m c t k q) (mean_row_block m c t q)

/-- What point t writes back to the var array is block t of the var. -/
theorem var_flushed (c : Dev nD) (t : Fin cfg0.N) :
    (dats m 0 c).flushed 8 t = ((cfg0.win 8).blk t).view.read (Elt Ideal) (varOf m c) := by
  obtain ⟨-, -, -, -, -, -, ⟨e60, e61⟩, ⟨e70, e71⟩, ⟨e80, e81⟩⟩ := index_facts t
  rw [Value.flushed8]
  unfold out0_8
  rw [View.canon_unit_zero offsets_zero]
  simp only [View.ld_unit_zero (S := S2048x64) offsets_zero, View.ld_unit_zero (S := S64x300) offsets_zero, View.ld_unit_zero (S := S1x300) offsets_zero]
  funext j
  show k0_pay4 (F := Ideal) (iblk m c 0 t) (iblk m c 3 t) (iblk m c 4 t) j = varOf m c (((cfg0.win 8).blk t).view.emb j)
  obtain ⟨p, q, rfl⟩ : ∃ (p : Fin 2048) (q : Fin 300), j = ix2 p q := ⟨j 0, j 1, eq_ix2 j⟩
  have hN : cfg0.N = 32 := N_0
  have hr : 2048 * t.val + p.val < 65536 := by have := t.isLt; omega
  have hemb : ((cfg0.win 8).blk t).view.emb (ix2 p q) = (ix2 ⟨2048 * t.val + p.val, hr⟩ q : S65536x300.Idx) := by
    funext a; apply Fin.ext
    match a with
    | ⟨0, _⟩ => show win0_8.index t (0 : Fin 2) * 2048 + 1 * p.val = 2048 * t.val + p.val; rw [e80]; omega
    | ⟨1, _⟩ => show win0_8.index t (1 : Fin 2) * 300 + 1 * q.val = q.val; rw [e81]; omega
  rw [hemb]
  exact var_rows (m ((c : Thread nD τ).loc main_arg0)) (m ((c : Thread nD τ).loc main_arg4)) (m ((c : Thread nD τ).loc main_arg5)) (iblk m c 0 t) (iblk m c 3 t) (iblk m c 4 t) p ⟨2048 * t.val + p.val, hr⟩ q (fun k => x_block m c t p k ⟨2048 * t.val + p.val, hr⟩ rfl)
    (fun k => scale_matrix_block m c t k q) (scale_row_block m c t q)

/-- What point t writes back to the sample array is block t of the sample. -/
theorem sample_flushed (c : Dev nD) (t : Fin cfg0.N) :
    (dats m 0 c).flushed 6 t = ((cfg0.win 6).blk t).view.read (Elt Ideal) (sampleOf m c) := by
  obtain ⟨-, -, -, -, -, -, ⟨e60, e61⟩, ⟨e70, e71⟩, ⟨e80, e81⟩⟩ := index_facts t
  rw [Value.flushed6]
  unfold out0_6
  rw [View.canon_unit_zero offsets_zero]
  simp only [View.ld_unit_zero (S := S2048x64) offsets_zero, View.ld_unit_zero (S := S64x300) offsets_zero, View.ld_unit_zero (S := S1x300) offsets_zero, View.ld_unit_zero (S := S2048x300) offsets_zero]
  funext j
  show k0_pay5 (F := Ideal) (iblk m c 0 t) (iblk m c 1 t) (iblk m c 3 t) (iblk m c 2 t) (iblk m c 4 t) (iblk m c 5 t) j = sampleOf m c (((cfg0.win 6).blk t).view.emb j)
  obtain ⟨p, q, rfl⟩ : ∃ (p : Fin 2048) (q : Fin 300), j = ix2 p q := ⟨j 0, j 1, eq_ix2 j⟩
  have hN : cfg0.N = 32 := N_0
  have hr : 2048 * t.val + p.val < 65536 := by have := t.isLt; omega
  have hemb : ((cfg0.win 6).blk t).view.emb (ix2 p q) = (ix2 ⟨2048 * t.val + p.val, hr⟩ q : S65536x300.Idx) := by
    funext a; apply Fin.ext
    match a with
    | ⟨0, _⟩ => show win0_6.index t (0 : Fin 2) * 2048 + 1 * p.val = 2048 * t.val + p.val; rw [e60]; omega
    | ⟨1, _⟩ => show win0_6.index t (1 : Fin 2) * 300 + 1 * q.val = q.val; rw [e61]; omega
  rw [hemb]
  exact sample_rows (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (iblk m c 0 t) (iblk m c 1 t) (iblk m c 2 t) (iblk m c 3 t) (iblk m c 4 t) (iblk m c 5 t) p ⟨2048 * t.val + p.val, hr⟩ q (fun k => x_block m c t p k ⟨2048 * t.val + p.val, hr⟩ rfl)
    (fun k => mean_matrix_block m c t k q) (mean_row_block m c t q)
    (fun k => scale_matrix_block m c t k q) (scale_row_block m c t q)
    (noise_block m c t p q ⟨2048 * t.val + p.val, hr⟩ rfl)

/-- Row r of the mean array lies in the block of point r / 2048. -/
theorem mean_cover (i : S65536x300.Idx) :
    ∃ t : Fin cfg0.N, (cfg0.win 7).flush t = true ∧ i ∈ ((cfg0.win 7).blk t).view.set := by
  have hi0 : (i 0).val < 65536 := (i 0).isLt
  have hi1 : (i 1).val < 300 := (i 1).isLt
  have hN : cfg0.N = 32 := N_0
  obtain ⟨t, ht⟩ : ∃ t : Fin cfg0.N, t.val = (i 0).val / 2048 := ⟨⟨(i 0).val / 2048, by rw [hN]; omega⟩, rfl⟩
  obtain ⟨-, -, -, -, -, -, ⟨e60, e61⟩, ⟨e70, e71⟩, ⟨e80, e81⟩⟩ := index_facts t
  refine ⟨t, flush0_7 t, ?_⟩
  show i ∈ ((View.whole main_v2_1).slice (win0_7.rect t)).set
  rw [View.set_slice_whole, Rect.mem_set_unit]
  intro a
  match a with
  | ⟨0, _⟩ =>
    show win0_7.index t (0 : Fin 2) * 2048 ≤ (i 0).val ∧ (i 0).val < win0_7.index t (0 : Fin 2) * 2048 + 2048
    rw [e70, ht]; omega
  | ⟨1, _⟩ =>
    show win0_7.index t (1 : Fin 2) * 300 ≤ (i 1).val ∧ (i 1).val < win0_7.index t (1 : Fin 2) * 300 + 300
    rw [e71]; omega

/-- So after the run the mean array is the mean of the argument arrays. -/
theorem mean_final (c : Dev nD) : (dats m 0 c).arrAt 7 cfg0.N = meanOf m c :=
  (dats m 0 c).arrAt_eq_of_cover 7 (meanOf m c) (fun t _ => mean_flushed m c t) mean_cover

/-- Row r of the var array lies in the block of point r / 2048. -/
theorem var_cover (i : S65536x300.Idx) :
    ∃ t : Fin cfg0.N, (cfg0.win 8).flush t = true ∧ i ∈ ((cfg0.win 8).blk t).view.set := by
  have hi0 : (i 0).val < 65536 := (i 0).isLt
  have hi1 : (i 1).val < 300 := (i 1).isLt
  have hN : cfg0.N = 32 := N_0
  obtain ⟨t, ht⟩ : ∃ t : Fin cfg0.N, t.val = (i 0).val / 2048 := ⟨⟨(i 0).val / 2048, by rw [hN]; omega⟩, rfl⟩
  obtain ⟨-, -, -, -, -, -, ⟨e60, e61⟩, ⟨e70, e71⟩, ⟨e80, e81⟩⟩ := index_facts t
  refine ⟨t, flush0_8 t, ?_⟩
  show i ∈ ((View.whole main_v2_2).slice (win0_8.rect t)).set
  rw [View.set_slice_whole, Rect.mem_set_unit]
  intro a
  match a with
  | ⟨0, _⟩ =>
    show win0_8.index t (0 : Fin 2) * 2048 ≤ (i 0).val ∧ (i 0).val < win0_8.index t (0 : Fin 2) * 2048 + 2048
    rw [e80, ht]; omega
  | ⟨1, _⟩ =>
    show win0_8.index t (1 : Fin 2) * 300 ≤ (i 1).val ∧ (i 1).val < win0_8.index t (1 : Fin 2) * 300 + 300
    rw [e81]; omega

/-- So after the run the var array is the var of the argument arrays. -/
theorem var_final (c : Dev nD) : (dats m 0 c).arrAt 8 cfg0.N = varOf m c :=
  (dats m 0 c).arrAt_eq_of_cover 8 (varOf m c) (fun t _ => var_flushed m c t) var_cover

/-- Row r of the sample array lies in the block of point r / 2048. -/
theorem sample_cover (i : S65536x300.Idx) :
    ∃ t : Fin cfg0.N, (cfg0.win 6).flush t = true ∧ i ∈ ((cfg0.win 6).blk t).view.set := by
  have hi0 : (i 0).val < 65536 := (i 0).isLt
  have hi1 : (i 1).val < 300 := (i 1).isLt
  have hN : cfg0.N = 32 := N_0
  obtain ⟨t, ht⟩ : ∃ t : Fin cfg0.N, t.val = (i 0).val / 2048 := ⟨⟨(i 0).val / 2048, by rw [hN]; omega⟩, rfl⟩
  obtain ⟨-, -, -, -, -, -, ⟨e60, e61⟩, ⟨e70, e71⟩, ⟨e80, e81⟩⟩ := index_facts t
  refine ⟨t, flush0_6 t, ?_⟩
  show i ∈ ((View.whole main_v2_0).slice (win0_6.rect t)).set
  rw [View.set_slice_whole, Rect.mem_set_unit]
  intro a
  match a with
  | ⟨0, _⟩ =>
    show win0_6.index t (0 : Fin 2) * 2048 ≤ (i 0).val ∧ (i 0).val < win0_6.index t (0 : Fin 2) * 2048 + 2048
    rw [e60, ht]; omega
  | ⟨1, _⟩ =>
    show win0_6.index t (1 : Fin 2) * 300 ≤ (i 1).val ∧ (i 1).val < win0_6.index t (1 : Fin 2) * 300 + 300
    rw [e61]; omega

/-- So after the run the sample array is the sample of the argument arrays. -/
theorem sample_final (c : Dev nD) : (dats m 0 c).arrAt 6 cfg0.N = sampleOf m c :=
  (dats m 0 c).arrAt_eq_of_cover 6 (sampleOf m c) (fun t _ => sample_flushed m c t) sample_cover

/-- The run of the idealized kernel: every weakly fair execution ends with the three result arrays at the sample,
    the mean and the variance of the argument arrays, and the argument arrays unchanged. -/
theorem run : θ_run defs (onTc (τ := τ) (main (F := Ideal))) ⟨m, fun _ => 0, ρ⟩ fun r => ∀ c : Dev nD,
      r.2.mem ((c : Thread nD τ).loc main_v2_0) = sampleOf m c
      ∧ r.2.mem ((c : Thread nD τ).loc main_v2_1) = meanOf m c
      ∧ r.2.mem ((c : Thread nD τ).loc main_v2_2) = varOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (sample_final m c), (h c).2.1.trans (mean_final m c),
      (h c).2.2.1.trans (var_final m c), (h c).2.2.2⟩)
    (Value.run_blocks m ρ)

end Cert.Sample

end
-- ==== Proof.lean ====
/-
  The certificate of a reparameterised Gaussian sample.

  Both programs compute, from x [65536, 64], two matrices Wμ, Wσ [64, 300], two vectors vμ, vσ [300] and a noise
  array ε [65536, 300] (an integer label array is carried and never read), the three [65536, 300] arrays
      mean   μ = x·Wμ + vμ,
      var    s·s       with s = x·Wσ + vσ,
      sample μ + (the standard deviation)·ε.
  The reference takes the standard deviation as sqrt (s·s); the kernel, working on 32 blocks of 2048 rows, takes |s|.
  At the ideal values — floats extended reals, every operation exact, a change of float format the identity —
  sqrt (s·s) = |s| holds for every extended real s, the matrix product of a block of rows into the zero accumulator
  is the same sum over the 64 contracted entries as the whole product's, and the 32 blocks of rows cover each
  result array.  So the two programs end with equal results.  No step divides, cancels or distributes, so the
  finiteness of the inputs is not used.

  The three frames are the generated ones (the reference's is its generated run with the results dropped); the
  idealization rewrote no operation, so there is nothing to preserve.
-/
import proofs.«171103_j11811160064302_2_alg».proof.Defs
import proofs.«171103_j11811160064302_2_alg».proof.Proof.Gen.Kernel
import proofs.«171103_j11811160064302_2_alg».proof.Proof.Gen.Kernel.Skeleton
import proofs.«171103_j11811160064302_2_alg».proof.Proof.Gen.Kernel.Launch
import proofs.«171103_j11811160064302_2_alg».proof.Proof.Gen.Kernel.Points
import proofs.«171103_j11811160064302_2_alg».proof.Proof.Gen.Kernel.Frame
import proofs.«171103_j11811160064302_2_alg».proof.Proof.Gen.KernelIdeal
import proofs.«171103_j11811160064302_2_alg».proof.Proof.Gen.KernelIdeal.Skeleton
import proofs.«171103_j11811160064302_2_alg».proof.Proof.Gen.KernelIdeal.Launch
import proofs.«171103_j11811160064302_2_alg».proof.Proof.Gen.KernelIdeal.Points
import proofs.«171103_j11811160064302_2_alg».proof.Proof.Gen.KernelIdeal.Frame
import proofs.«171103_j11811160064302_2_alg».proof.Proof.Gen.ReferenceIdeal
import proofs.«171103_j11811160064302_2_alg».proof.Proof.Gen.Pre_finite_inputs
import proofs.«171103_j11811160064302_2_alg».proof.Proof.Gen.KernelIdeal.Value
import proofs.«171103_j11811160064302_2_alg».proof.Proof.Gen.ReferenceIdeal.Run
import proofs.«171103_j11811160064302_2_alg».proof.Proof.Gen.ReferenceIdeal.Read
import proofs.«171103_j11811160064302_2_alg».proof.Proof.Arrays
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the idealized reference: its run, with what it says of the results dropped. -/
theorem frame_reference_ideal : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories that agree on the arguments, the idealized kernel ends with its three result arrays at the
    sample, the mean and the variance of its argument arrays, and the idealized reference ends with its three
    results at the same three functions of its own, equal, argument arrays. -/
theorem algebraic : Cert.algebraic_KernelIdeal_ReferenceIdeal := by
  intro m ρ m' ρ' _ hagree
  refine ⟨fun c => Cert.Sample.sampleOf m c, fun c => Cert.Sample.meanOf m c, fun c => Cert.Sample.varOf m c,
    Cert.Sample.run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  refine ⟨(h c).1.trans ?_, (h c).2.1.trans ?_, (h c).2.2.1.trans ?_, (h c).2.2.2⟩
  · rw [a0, a2, a3, a4, a5, a6]; rfl
  · rw [a0, a2, a3]; rfl
  · rw [a0, a4, a5]; rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
